-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v51)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v51) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S_ : Shape := ⟨0, ![]⟩

class Facts : Prop where
  bcast_S_S100000x48 : S_.BroadcastsInDim S100000x48 (![] : Fin 0 → Fin S100000x48.rank)
  reducesTo_S100000x48_S_d0_1 : S100000x48.ReducesTo [0, 1] S_
  h_S_ : 0 < S_.numel
  bcast_S_S48x48 : S_.BroadcastsInDim S48x48 (![] : Fin 0 → Fin S48x48.rank)
  reducesTo_S48x48_S_d0_1 : S48x48.ReducesTo [0, 1] S_
  bcast_S_S48 : S_.BroadcastsInDim S48 (![] : Fin 0 → Fin S48.rank)
  reducesTo_S48_S_d0 : S48.ReducesTo [0] S_

variable [Facts]

def fn {F : FTy → Type} [FloatOps F] (main_arg0 : FVec F S100000x48 .f32) (main_arg1 : IVec S2x1600000 32) (main_arg2 : FVec F S48x48 .f32) (main_arg3 : FVec F S48 .f32) : IVec S_ 1 :=
  let main_v0 : FVec F S100000x48 .f32 := Host.absf main_arg0
  let main_cst : FVec F S_ .f32 := constant S_ .f32 0x7F800000#32
  let main_v1 : FVec F S100000x48 .f32 := broadcastInDim S100000x48 ![] bcast_S_S100000x48 main_cst
  let main_v2 : IVec S100000x48 1 := cmpf .olt main_v0 main_v1
  let main_c : IVec S_ 1 := constantI S_ 1 1#1
  let main_v3 : IVec S_ 1 := (fun x v => Host.reduce IntOp.andi x v reducesTo_S100000x48_S_d0_1 h_S_) main_v2 main_c
  let main_v4 : FVec F S48x48 .f32 := Host.absf main_arg2
  let main_cst_0 : FVec F S_ .f32 := constant S_ .f32 0x7F800000#32
  let main_v5 : FVec F S48x48 .f32 := broadcastInDim S48x48 ![] bcast_S_S48x48 main_cst_0
  let main_v6 : IVec S48x48 1 := cmpf .olt main_v4 main_v5
  let main_c_1 : IVec S_ 1 := constantI S_ 1 1#1
  let main_v7 : IVec S_ 1 := (fun x v => Host.reduce IntOp.andi x v reducesTo_S48x48_S_d0_1 h_S_) main_v6 main_c_1
  let main_v8 : IVec S_ 1 := andi main_v3 main_v7
  let main_v9 : FVec F S48 .f32 := Host.absf main_arg3
  let main_cst_2 : FVec F S_ .f32 := constant S_ .f32 0x7F800000#32
  let main_v10 : FVec F S48 .f32 := broadcastInDim S48 ![] bcast_S_S48 main_cst_2
  let main_v11 : IVec S48 1 := cmpf .olt main_v9 main_v10
  let main_c_3 : IVec S_ 1 := constantI S_ 1 1#1
  let main_v12 : IVec S_ 1 := (fun x v => Host.reduce IntOp.andi x v reducesTo_S48_S_d0 h_S_) main_v11 main_c_3
  let main_v13 : IVec S_ 1 := andi main_v8 main_v12
  main_v13
-- ==== Kernel.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x48 : Shape := ⟨2, ![1600000, 48]⟩
abbrev S1605632x48 : Shape := ⟨2, ![1605632, 48]⟩
abbrev S1605632 : Shape := ⟨1, ![1605632]⟩
abbrev S16384x48 : Shape := ⟨2, ![16384, 48]⟩
abbrev S16384 : Shape := ⟨1, ![16384]⟩
abbrev S16384x1 : Shape := ⟨2, ![16384, 1]⟩
abbrev S1605632x1 : Shape := ⟨2, ![1605632, 1]⟩
abbrev S10000x48 : Shape := ⟨2, ![10000, 48]⟩
abbrev S1x48 : Shape := ⟨2, ![1, 48]⟩

abbrev nBuf : Space → Nat
  | .hbm => 84
  | .vmem => 12
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x48, .f32⟩
  | .hbm, ⟨3, _⟩ => ⟨S48, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S100000, .i32⟩
  | .hbm, ⟨10, _⟩ => ⟨S_, .i32⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S_, .i32⟩
  | .hbm, ⟨23, _⟩ => ⟨S1600000, .i32⟩
  | .hbm, ⟨24, _⟩ => ⟨S100000, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000, .f32⟩
  | .hbm, ⟨59, _⟩ => ⟨S1600000, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x48, .f32⟩
  | .hbm, ⟨69, _⟩ => ⟨S_, .i32⟩
  | .hbm, ⟨70, _⟩ => ⟨S_, .f32⟩
  | .hbm, ⟨71, _⟩ => ⟨S1605632x48, .f32⟩
  | .hbm, ⟨72, _⟩ => ⟨S_, .i32⟩
  | .hbm, ⟨73, _⟩ => ⟨S_, .f32⟩
  | .hbm, ⟨74, _⟩ => ⟨S1605632, .f32⟩
  | .hbm, ⟨75, _⟩ => ⟨S_, .i32⟩
  | .hbm, ⟨76, _⟩ => ⟨S_, .i32⟩
  | .hbm, ⟨77, _⟩ => ⟨S1605632, .i32⟩
  | .hbm, ⟨78, _⟩ => ⟨S1605632x48, .f32⟩
  | .hbm, ⟨79, _⟩ => ⟨S_, .f32⟩
  | .hbm, ⟨80, _⟩ => ⟨S100000x48, .f32⟩
  | .hbm, ⟨81, _⟩ => ⟨S1605632x1, .i32⟩
  | .hbm, ⟨82, _⟩ => ⟨S100000x48, .f32⟩
  | .hbm, ⟨83, _⟩ => ⟨S100000x48, .f32⟩
  | .local _ .vmem, ⟨0, _⟩ => ⟨S16384x48, .f32⟩
  | .local _ .vmem, ⟨1, _⟩ => ⟨S16384x48, .f32⟩
  | .local _ .vmem, ⟨2, _⟩ => ⟨S16384, .f32⟩
  | .local _ .vmem, ⟨3, _⟩ => ⟨S16384, .f32⟩
  | .local _ .vmem, ⟨4, _⟩ => ⟨S16384x48, .f32⟩
  | .local _ .vmem, ⟨5, _⟩ => ⟨S16384x48, .f32⟩
  | .local _ .vmem, ⟨6, _⟩ => ⟨S10000x48, .f32⟩
  | .local _ .vmem, ⟨7, _⟩ => ⟨S10000x48, .f32⟩
  | .local _ .vmem, ⟨8, _⟩ => ⟨S48x48, .f32⟩
  | .local _ .vmem, ⟨9, _⟩ => ⟨S48, .f32⟩
  | .local _ .vmem, ⟨10, _⟩ => ⟨S10000x48, .f32⟩
  | .local _ .vmem, ⟨11, _⟩ => ⟨S10000x48, .f32⟩
  | _, _ => ⟨S100000x48, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_v21 : Ref sig .tc := ⟨.hbm, 40, rfl⟩
abbrev main_c_7 : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_9 : Ref sig .tc := ⟨.hbm, 50, rfl⟩
abbrev main_v29 : Ref sig .tc := ⟨.hbm, 51, rfl⟩
abbrev main_v30 : Ref sig .tc := ⟨.hbm, 52, rfl⟩
abbrev main_c_10 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_11 : Ref sig .tc := ⟨.hbm, 60, rfl⟩
abbrev main_v37 : Ref sig .tc := ⟨.hbm, 61, rfl⟩
abbrev main_v38 : Ref sig .tc := ⟨.hbm, 62, rfl⟩
abbrev main_c_12 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_13 : Ref sig .tc := ⟨.hbm, 69, rfl⟩
abbrev main_call3_v0 : Ref sig .tc := ⟨.hbm, 70, rfl⟩
abbrev main_v44 : Ref sig .tc := ⟨.hbm, 71, rfl⟩
abbrev main_c_14 : Ref sig .tc := ⟨.hbm, 72, rfl⟩
abbrev main_call4_v0 : Ref sig .tc := ⟨.hbm, 73, rfl⟩
abbrev main_v45 : Ref sig .tc := ⟨.hbm, 74, rfl⟩
abbrev main_c_15 : Ref sig .tc := ⟨.hbm, 75, rfl⟩
abbrev main_call5_v0 : Ref sig .tc := ⟨.hbm, 76, rfl⟩
abbrev main_v46 : Ref sig .tc := ⟨.hbm, 77, rfl⟩
abbrev main_v47 : Ref sig .tc := ⟨.hbm, 78, rfl⟩
abbrev main_cst_16 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x48 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16384x48 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x48 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S48x48 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S48 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x48 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  pads_S1600000x48_S1605632x48_056320_000 : S1600000x48.Pads (![0, 0] : Fin 2 → Nat) ![5632, 0] ![0, 0] S1605632x48
  h_S_ : 0 < S_.numel
  pads_S1600000_S1605632_056320 : S1600000.Pads (![0] : Fin 1 → Nat) ![5632] ![0] S1605632
  inb_S16384x48_S16384x48_0_0 : ∀ a, (![0, 0] : Fin 2 → Nat) a + S16384x48.size a ≤ S16384x48.size a
  h_S16384x48 : 0 < S16384x48.numel
  shapeCasts_S16384x48_S16384x48 : S16384x48.ShapeCasts S16384x48
  inb_S16384_S16384_0 : ∀ a, (![0] : Fin 1 → Nat) a + S16384.size a ≤ S16384.size a
  h_S16384 : 0 < S16384.numel
  shapeCasts_S16384_S16384 : S16384.ShapeCasts S16384
  shapeCasts_S16384_S16384x1 : S16384.ShapeCasts S16384x1
  broadcasts_S16384x1_S16384x48 : S16384x1.Broadcasts S16384x48
  bcast_S_S100000x48 : S_.BroadcastsInDim S100000x48 (![] : Fin 0 → Fin S100000x48.rank)
  bcast_S1605632_S1605632x1_0 : S1605632.BroadcastsInDim S1605632x1 (![0] : Fin 1 → Fin S1605632x1.rank)
  inb_S10000x48_S10000x48_0_0 : ∀ a, (![0, 0] : Fin 2 → Nat) a + S10000x48.size a ≤ S10000x48.size a
  h_S10000x48 : 0 < S10000x48.numel
  shapeCasts_S10000x48_S10000x48 : S10000x48.ShapeCasts S10000x48
  bitsLt_bf16_f32 : FTy.bits .bf16 < FTy.bits .f32
  inb_S48x48_S48x48_0_0 : ∀ a, (![0, 0] : Fin 2 → Nat) a + S48x48.size a ≤ S48x48.size a
  h_S48x48 : 0 < S48x48.numel
  transposes_S48x48_p1_0_S48x48 : S48x48.Transposes [1, 0] S48x48
  inb_S48_S48_0 : ∀ a, (![0] : Fin 1 → Nat) a + S48.size a ≤ S48.size a
  h_S48 : 0 < S48.numel
  shapeCasts_S48_S1x48 : S48.ShapeCasts S1x48
  broadcasts_S1x48_S10000x48 : S1x48.Broadcasts S10000x48
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x48_S1600000x1_S1600000x48_1_0_n_n_0_1_148_wf : GatherDims.WF S100000x48 S1600000x1 S1600000x48 [1] [0] [] [0] [] 1 ![1, 48]
  scatter_S100000x48_S1605632x1_S1605632x48_1_0_0_1_wf : ScatterDims.WF S100000x48 S1605632x1 S1605632x48 [1] [0] [0] 1
  dot_S10000x48_S48x48_S10000x48_1_0_0_1_n_n_wf : DotDims.WF S10000x48 S48x48 S10000x48 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x48.size a ≤ S1605632x48.size a
  hwx0_0 : ∀ i : grid0.Coords, EltTy.bits .f32 = 32 ∨ (Rect.block (s := S1605632x48) S16384x48.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16384.size a ≤ S1605632.size a
  hwx0_1 : ∀ i : grid0.Coords, EltTy.bits .f32 = 32 ∨ (Rect.block (s := S1605632) S16384.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16384x48.size a ≤ S1605632x48.size a
  hwx0_2 : ∀ i : grid0.Coords, EltTy.bits .f32 = 32 ∨ (Rect.block (s := S1605632x48) S16384x48.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x48.size a ≤ S100000x48.size a
  hwx1_0 : ∀ i : grid1.Coords, EltTy.bits .f32 = 32 ∨ (Rect.block (s := S100000x48) S10000x48.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S48x48.size a ≤ S48x48.size a
  hwx1_1 : ∀ i : grid1.Coords, EltTy.bits .f32 = 32 ∨ (Rect.block (s := S48x48) S48x48.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S48.size a ≤ S48.size a
  hwx1_2 : ∀ i : grid1.Coords, EltTy.bits .f32 = 32 ∨ (Rect.block (s := S48) S48.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x48.size a ≤ S100000x48.size a
  hwx1_3 : ∀ i : grid1.Coords, EltTy.bits .f32 = 32 ∨ (Rect.block (s := S100000x48) S10000x48.size (cc1_transform_3 i) (hinb1_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1605632x1_S1605632x48_1_0_0_1 : ScatterDims S100000x48 S1605632x1 S1605632x48 where
  updateWindowDims := [1]
  insertedWindowDims := [0]
  scatterDimsToOperandDims := [0]
  indexVectorDim := 1
  wf := scatter_S100000x48_S1605632x1_S1605632x48_1_0_0_1_wf
def dot_S10000x48_S48x48_S10000x48_1_0_0_1_n_n : DotDims S10000x48 S48x48 S10000x48 where
  lhsContracting := [1]
  rhsContracting := [0]
  lhsNonContracting := [0]
  rhsNonContracting := [1]
  lhsBatch := []
  rhsBatch := []
  wf := dot_S10000x48_S48x48_S10000x48_1_0_0_1_n_n_wf

abbrev win0_0 : Pipeline.Window sig grid0 :=
  Pipeline.Window.ofSpec (Memref.whole main_v44) S16384x48.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v45) S16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v47) S16384x48.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v50) S10000x48.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S48x48.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S48.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S10000x48.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S100000x48 : Shape := ⟨2, ![100000, 48]⟩
abbrev S2x1600000 : Shape := ⟨2, ![2, 1600000]⟩
abbrev S48x48 : Shape := ⟨2, ![48, 48]⟩
abbrev S48 : Shape := ⟨1, ![48]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x48 : Shape := ⟨2, ![1600000, 48]⟩
abbrev S1x48 : Shape := ⟨2, ![1, 48]⟩

abbrev nBuf : Space → Nat
  | .hbm => 84
  | .vmem => 0
  | .smem => 0
  | _ => 0

abbrev bufTy : (tb : Table) → Fin (tcTables nBuf tb) → BufTy
  | .hbm, ⟨0, _⟩ => ⟨S100000x48, .f32⟩
  | .hbm, ⟨1, _⟩ => ⟨S2x1600000, .i32⟩
  | .hbm, ⟨2, _⟩ => ⟨S48x48, .f32⟩
  | .hbm, ⟨3, _⟩ => ⟨S48, .f32⟩
  | .hbm, ⟨4, _⟩ => ⟨S1x1600000, .i32⟩
  | .hbm, ⟨5, _⟩ => ⟨S1600000, .i32⟩
  | .hbm, ⟨6, _⟩ => ⟨S1x1600000, .i32⟩
  | .hbm, ⟨7, _⟩ => ⟨S1600000, .i32⟩
  | .hbm, ⟨8, _⟩ => ⟨S_, .i32⟩
  | .hbm, ⟨9, _⟩ => ⟨S100000, .i32⟩
  | .hbm, ⟨10, _⟩ => ⟨S_, .i32⟩
  | .hbm, ⟨11, _⟩ => ⟨S_, .i32⟩
  | .hbm, ⟨12, _⟩ => ⟨S1600000, .i32⟩
  | .hbm, ⟨13, _⟩ => ⟨S1600000, .i32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S_, .i32⟩
  | .hbm, ⟨23, _⟩ => ⟨S1600000, .i32⟩
  | .hbm, ⟨24, _⟩ => ⟨S100000, .i32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .i1⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000, .f32⟩
  | .hbm, ⟨37, _⟩ => ⟨S_, .f32⟩
  | .hbm, ⟨38, _⟩ => ⟨S_, .f32⟩
  | .hbm, ⟨39, _⟩ => ⟨S100000, .f32⟩
  | .hbm, ⟨40, _⟩ => ⟨S100000, .f32⟩
  | .hbm, ⟨41, _⟩ => ⟨S_, .i32⟩
  | .hbm, ⟨42, _⟩ => ⟨S1600000, .i32⟩
  | .hbm, ⟨43, _⟩ => ⟨S1600000, .i1⟩
  | .hbm, ⟨44, _⟩ => ⟨S_, .i32⟩
  | .hbm, ⟨45, _⟩ => ⟨S1600000, .i32⟩
  | .hbm, ⟨46, _⟩ => ⟨S1600000, .i32⟩
  | .hbm, ⟨47, _⟩ => ⟨S1600000, .i32⟩
  | .hbm, ⟨48, _⟩ => ⟨S1600000x1, .i32⟩
  | .hbm, ⟨49, _⟩ => ⟨S1600000, .f32⟩
  | .hbm, ⟨50, _⟩ => ⟨S_, .i32⟩
  | .hbm, ⟨51, _⟩ => ⟨S1600000, .i32⟩
  | .hbm, ⟨52, _⟩ => ⟨S1600000, .i1⟩
  | .hbm, ⟨53, _⟩ => ⟨S_, .i32⟩
  | .hbm, ⟨54, _⟩ => ⟨S1600000, .i32⟩
  | .hbm, ⟨55, _⟩ => ⟨S1600000, .i32⟩
  | .hbm, ⟨56, _⟩ => ⟨S1600000, .i32⟩
  | .hbm, ⟨57, _⟩ => ⟨S1600000x1, .i32⟩
  | .hbm, ⟨58, _⟩ => ⟨S1600000, .f32⟩
  | .hbm, ⟨59, _⟩ => ⟨S1600000, .f32⟩
  | .hbm, ⟨60, _⟩ => ⟨S1600000x1, .f32⟩
  | .hbm, ⟨61, _⟩ => ⟨S_, .i32⟩
  | .hbm, ⟨62, _⟩ => ⟨S1600000, .i32⟩
  | .hbm, ⟨63, _⟩ => ⟨S1600000, .i1⟩
  | .hbm, ⟨64, _⟩ => ⟨S_, .i32⟩
  | .hbm, ⟨65, _⟩ => ⟨S1600000, .i32⟩
  | .hbm, ⟨66, _⟩ => ⟨S1600000, .i32⟩
  | .hbm, ⟨67, _⟩ => ⟨S1600000, .i32⟩
  | .hbm, ⟨68, _⟩ => ⟨S1600000x1, .i32⟩
  | .hbm, ⟨69, _⟩ => ⟨S1600000x48, .f32⟩
  | .hbm, ⟨70, _⟩ => ⟨S1600000x48, .f32⟩
  | .hbm, ⟨71, _⟩ => ⟨S1600000x48, .f32⟩
  | .hbm, ⟨72, _⟩ => ⟨S_, .f32⟩
  | .hbm, ⟨73, _⟩ => ⟨S100000x48, .f32⟩
  | .hbm, ⟨74, _⟩ => ⟨S1600000x1, .i32⟩
  | .hbm, ⟨75, _⟩ => ⟨S100000x48, .f32⟩
  | .hbm, ⟨76, _⟩ => ⟨S48x48, .f32⟩
  | .hbm, ⟨77, _⟩ => ⟨S100000x48, .f32⟩
  | .hbm, ⟨78, _⟩ => ⟨S1x48, .f32⟩
  | .hbm, ⟨79, _⟩ => ⟨S100000x48, .f32⟩
  | .hbm, ⟨80, _⟩ => ⟨S100000x48, .f32⟩
  | .hbm, ⟨81, _⟩ => ⟨S_, .f32⟩
  | .hbm, ⟨82, _⟩ => ⟨S100000x48, .f32⟩
  | .hbm, ⟨83, _⟩ => ⟨S100000x48, .f32⟩
  | _, _ => ⟨S100000x48, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c_3 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_call1_v0 : Ref sig .tc := ⟨.hbm, 33, rfl⟩
abbrev main_call1_v1 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_call2_v0 : Ref sig .tc := ⟨.hbm, 38, rfl⟩
abbrev main_call2_v1 : Ref sig .tc := ⟨.hbm, 39, rfl⟩
abbrev main_v21 : Ref sig .tc := ⟨.hbm, 40, rfl⟩
abbrev main_c_7 : Ref sig .tc := ⟨.hbm, 41, rfl⟩
abbrev main_v22 : Ref sig .tc := ⟨.hbm, 42, rfl⟩
abbrev main_v23 : Ref sig .tc := ⟨.hbm, 43, rfl⟩
abbrev main_c_8 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_9 : Ref sig .tc := ⟨.hbm, 50, rfl⟩
abbrev main_v29 : Ref sig .tc := ⟨.hbm, 51, rfl⟩
abbrev main_v30 : Ref sig .tc := ⟨.hbm, 52, rfl⟩
abbrev main_c_10 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_11 : Ref sig .tc := ⟨.hbm, 61, rfl⟩
abbrev main_v38 : Ref sig .tc := ⟨.hbm, 62, rfl⟩
abbrev main_v39 : Ref sig .tc := ⟨.hbm, 63, rfl⟩
abbrev main_c_12 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_13 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_call3_cst : Ref sig .tc := ⟨.hbm, 81, rfl⟩
abbrev main_call3_v0 : Ref sig .tc := ⟨.hbm, 82, rfl⟩
abbrev main_v55 : Ref sig .tc := ⟨.hbm, 83, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S100000 : S_.BroadcastsInDim S100000 (![] : Fin 0 → Fin S100000.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x48_0_1 : S1600000x1.BroadcastsInDim S1600000x48 (![0, 1] : Fin 2 → Fin S1600000x48.rank)
  bcast_S_S100000x48 : S_.BroadcastsInDim S100000x48 (![] : Fin 0 → Fin S100000x48.rank)
  transposes_S48x48_S48x48_1_0 : S48x48.Transposes [1, 0] S48x48
  bcast_S48_S1x48_1 : S48.BroadcastsInDim S1x48 (![1] : Fin 1 → Fin S1x48.rank)
  bcast_S1x48_S100000x48_0_1 : S1x48.BroadcastsInDim S100000x48 (![0, 1] : Fin 2 → Fin S100000x48.rank)
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  gather_S100000x48_S1600000x1_S1600000x48_1_0_n_n_0_1_148_wf : GatherDims.WF S100000x48 S1600000x1 S1600000x48 [1] [0] [] [0] [] 1 ![1, 48]
  scatter_S100000x48_S1600000x1_S1600000x48_1_0_0_1_wf : ScatterDims.WF S100000x48 S1600000x1 S1600000x48 [1] [0] [0] 1
  dot_S100000x48_S48x48_S100000x48_1_0_0_1_n_n_wf : DotDims.WF S100000x48 S48x48 S100000x48 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x48_S1600000x1_S1600000x48_1_0_n_n_0_1_148 : GatherDims S100000x48 S1600000x1 S1600000x48 where
  offsetDims := [1]
  collapsedSliceDims := [0]
  operandBatchingDims := []
  startIndicesBatchingDims := []
  startIndexMap := [0]
  indexVectorDim := 1
  sliceSizes := ![1, 48]
  wf := gather_S100000x48_S1600000x1_S1600000x48_1_0_n_n_0_1_148_wf
def scatter_S100000x48_S1600000x1_S1600000x48_1_0_0_1 : ScatterDims S100000x48 S1600000x1 S1600000x48 where
  updateWindowDims := [1]
  insertedWindowDims := [0]
  scatterDimsToOperandDims := [0]
  indexVectorDim := 1
  wf := scatter_S100000x48_S1600000x1_S1600000x48_1_0_0_1_wf
def dot_S100000x48_S48x48_S100000x48_1_0_0_1_n_n : DotDims S100000x48 S48x48 S100000x48 where
  lhsContracting := [1]
  rhsContracting := [0]
  lhsNonContracting := [0]
  rhsNonContracting := [1]
  lhsBatch := []
  rhsBatch := []
  wf := dot_S100000x48_S48x48_S100000x48_1_0_0_1_n_n_wf

class Facts : Prop extends Facts₀ where

variable [Facts]
-- ==== Proof.KernelRun.lean ====
/-
  The idealized kernel's run with its result named.

  The program is a stretch of host operations, the first pallas_call (the scaling of the gathered rows), one more
  host operation (the scatter-add into node rows), and the second pallas_call (the linear layer clipped at zero).
  Its generated frame certificate follows the buffer contents through these segments: `Gen.W15 m ρ c` is the
  contents of every buffer when the last segment ends. The frame theorem reads only the argument arrays out of that
  final state; read at the result buffer as well, the same run says that every weakly fair execution ends with the
  result array at `Gen.W15 m ρ c` there, which is what the value proof starts from.
-/
import proofs.«113284_j33449205301469_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the four argument arrays as launched. -/
theorem run : θ_run defs (onTc (τ := τ) (main (F := F))) ⟨m, fun _ => 0, ρ⟩ (fun r => ∀ c : Dev nD,
      r.2.mem ((c.tc : Thread nD τ).loc main_v51) = W15 m ρ c (Proc.devRef .tc main_v51)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v51 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c)⟩)

end Cert.KernelIdeal.RunValue

end
-- ==== Proof.Stages.lean ====
/-
  The host operations before the first pallas_call, read at the three arrays that call and the scatter-add consume.

  Both programs begin with the same operations on the edge list: the degree of every node (a scatter of ones), its
  inverse square root where it is positive, the coefficient of an edge as the product of the values at its two ends,
  and the feature rows of the source nodes gathered edge by edge. The kernel program then appends 5632 rows of zeros
  to the gathered rows and 5632 zeros to the coefficients, and 5632 entries (zeros) to the target row numbers, so that
  the edge axis is a whole number of blocks. Read back through the program's stretches of host operations, the three
  padded arrays are the `pad`s of the reference's own stages: the gathered rows, the coefficients, the row numbers.
-/
import proofs.«113284_j33449205301469_1_alg».proof.Proof.Gen.KernelIdeal.Frame
import proofs.«113284_j33449205301469_1_alg».proof.Proof.RefRead

set_option maxRecDepth 16384

noncomputable section

namespace Cert.KernelIdeal.Stages

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 4000000 in
/-- The first pallas_call's row operand: the gathered source rows, 5632 rows of the float zero appended. -/
theorem v44_eq (c : Dev nD) :
    W12 m ρ c (Proc.devRef .tc main_v44)
      = pad S1605632x48 ![0, 0] ![5632, 0] ![0, 0]
          (Cert.ReferenceIdeal.Read.val_main_v44 (F := Ideal) (m ((c.tc : Thread nD τ).loc main_arg0)) (m ((c.tc : Thread nD τ).loc main_arg1)))
          (sitofp (F := Ideal) .f32 (constantI S_ 32 0#32)) pads_S1600000x48_S1605632x48_056320_000 h_S_ := by
  simp only [hostOps0, hostOps0_1, hostOps0_2, hostOps0_3, hostOps0_4, hostOps0_5, hostOps0_6, hostOps0_7, hostOps0_8,
    hostOps0_9, hostOps0_10, hostOps0_11]
  after_results_simp
  rfl

set_option maxHeartbeats 4000000 in
/-- Its coefficient operand: the edges' coefficients, 5632 float zeros appended. -/
theorem v45_eq (c : Dev nD) :
    W12 m ρ c (Proc.devRef .tc main_v45)
      = pad S1605632 ![0] ![5632] ![0] (Cert.ReferenceIdeal.Read.val_main_v36 (F := Ideal) (m ((c.tc : Thread nD τ).loc main_arg1)))
          (sitofp (F := Ideal) .f32 (constantI S_ 32 0#32)) pads_S1600000_S1605632_056320 h_S_ := by
  simp only [hostOps0, hostOps0_1, hostOps0_2, hostOps0_3, hostOps0_4, hostOps0_5, hostOps0_6, hostOps0_7, hostOps0_8,
    hostOps0_9, hostOps0_10, hostOps0_11]
  after_results_simp
  rfl

set_option maxHeartbeats 4000000 in
/-- The scatter-add's row numbers: the edges' target nodes, 5632 integer zeros appended. -/
theorem v46_eq (c : Dev nD) :
    W12 m ρ c (Proc.devRef .tc main_v46)
      = pad S1605632 ![0] ![5632] ![0] (Cert.ReferenceIdeal.Read.val_main_v1 (F := Ideal) (m ((c.tc : Thread nD τ).loc main_arg1)))
          (constantI S_ 32 0#32) pads_S1600000_S1605632_056320 h_S_ := by
  simp only [hostOps0, hostOps0_1, hostOps0_2, hostOps0_3, hostOps0_4, hostOps0_5, hostOps0_6, hostOps0_7, hostOps0_8,
    hostOps0_9, hostOps0_10, hostOps0_11]
  after_results_simp
  rfl

end Cert.KernelIdeal.Stages

end
-- ==== Proof.LibKeepdims.lean ====
/-
  Layout and contraction operations of a row-wise kernel body, read at an index written by coordinates, at the
  ideal values. A sum kept as a column (`keepdims`) goes through two layout steps the coordinate forms below read:
  a vector `[a]` recast as a column `[a, 1]`, and a column `[a, 1]` broadcast along the rows of `[a, b]`.
  With them: a lane sum of a matrix read at a row as the sum over that row, and a matrix product into a zero
  accumulator read at `(r, n)` as the sum over the contracted coordinate of row `r` times column `n`.
-/
import Idealize.ShloMosaic.Lib.ValueLayout
import Idealize.ShloMosaic.Lib.ValueIdx
import Idealize.ShloMosaic.PureOps.Ideal.Laws

noncomputable section

namespace Cert.LibKeepdims

open Idealize.ShloMosaic Idealize.ShloMosaic.ValueIdx

variable {α : Type}

/-- A vector `[a]` recast as the column `[a, 1]` reads, at `(i, u)`, the vector at `i`: the row-major position of
    `(i, u)` in `[a, 1]` is `i · 1 + 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The exponential of a vector, read at an index, is the exponential of the entry. -/
theorem exp_apply {s : Shape} {φ : FTy} (v : FVec Ideal s φ) (i : s.Idx) : exp v i = Ideal.exp (v i) := rfl

/-- The host's exponential of an array likewise. -/
theorem hostExp_apply {s : Shape} {φ : FTy} (v : FVec Ideal s φ) (i : s.Idx) : Host.exp v i = Ideal.exp (v i) := rfl

/-- A float scalar constant at the ideal values is the extended real its pattern denotes. -/
theorem scalar_ofBits (φ : FTy) (b : BitVec φ.bits) : Scalar.ofBits (F := Ideal) φ b = Ideal.ofBits φ b := rfl

end Cert.LibKeepdims

end
-- ==== Proof.ScaleValue.lean ====
/-
  The first pallas_call: every gathered feature row scaled by its edge's coefficient.

  The call's grid has 98 points; point t works on rows 16384·t … 16384·t + 16383 of the padded edge axis: it
  loads that block of the [1605632, 48] row array and of the [1605632] coefficient vector, recasts the coefficients
  as a column, broadcasts the column along the 48 features, multiplies, and stores the product as block t of the
  result. So the block point t writes back is the restriction to its rows of ONE function of the two whole arrays,
      scaled A v (e, f) = A (e, f) · v e,
  and since the 98 blocks tile the result, the result array ends holding `scaled` of the two arrays as the call
  finds them.
-/
import proofs.«113284_j33449205301469_1_alg».proof.Proof.Gen.KernelIdeal.Frame
import proofs.«113284_j33449205301469_1_alg».proof.Proof.LibKeepdims
import Idealize.ShloMosaic.Lib.Pipeline.Value
import Idealize.ShloMosaic.Lib.ValueIdx
import Idealize.ShloMosaic.Lib.ValueLayout

set_option maxRecDepth 16384

noncomputable section

namespace Cert.KernelIdeal.ScaleValue

open Cert.KernelIdeal Cert.KernelIdeal.Gen
open Idealize.ShloMosaic Idealize.ShloMosaic.TcCoe Idealize.SL.Sem Idealize.ShloMosaic.ValueIdx
open Idealize.ShloMosaic.Pipeline (Dat)

/-- Row `e` of `A` times the coefficient `v e`, feature by feature. -/
def scaled (A : S1605632x48.Idx → EReal) (v : S1605632.Idx → EReal) : S1605632x48.Idx → EReal :=
  fun i => A i * v (ix1 (⟨(i 0).val, idx2_lt0 i⟩ : Fin 1605632))

/-- An entry of the rows times the matching coefficient is `scaled` there: the arithmetic of one block entry, with
    the two reads named by where they land in the whole arrays. -/
theorem scaled_at (A : S1605632x48.Idx → EReal) (v : S1605632.Idx → EReal) (i0 i2 : S1605632x48.Idx) (i1 : S1605632.Idx)
    (h0 : i0 = i2) (h1 : i1 = ix1 (⟨(i2 0).val, idx2_lt0 i2⟩ : Fin 1605632)) : A i0 * v i1 = scaled A v i2 := by
  subst h0; rw [h1]; rfl

/-- The body's product at row `p`, feature `q` of a block: the block's entry times the block's coefficient of row `p`. -/
theorem pay_apply (x0 : Vec Ideal S16384x48 .f32) (x1 : Vec Ideal S16384 .f32) (p : Fin 16384) (q : Fin 48) :
    k0_pay1 x0 x1 (ix2 p q) = (x0 (ix2 p q) : EReal) * x1 (ix1 p) := by
  unfold k0_pay1
  refine (mulf_apply _ _ _).trans ?_
  rw [shapeCast_self, shapeCast_self]
  rw [Cert.LibKeepdims.broadcastTo_a1_ab_apply, Cert.LibKeepdims.shapeCast_a_a1_apply]

theorem hz : (![0, 0] : Fin 2 → Nat) = fun _ => 0 := funext fun a => by fin_cases a <;> rfl
theorem hz1 : (![0] : Fin 1 → Nat) = fun _ => 0 := funext fun a => by fin_cases a; rfl

/-- The three index maps send point `t` to block `t` of the edge axis (and block 0 of the feature axis). -/
theorem idx_facts : ∀ t : Fin cfg0.N, win0_0.index t (0 : Fin 2) = t.val ∧ win0_0.index t (1 : Fin 2) = 0
    ∧ win0_1.index t (0 : Fin 1) = t.val
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of `scaled` of the two arrays as the call finds them. -/
theorem flushed_eq (c : Dev nD) (t : Fin cfg0.N) :
    (dat0 (F := Ideal) V c).flushed 2 t
      = ((cfg0.win 2).blk t).view.read (Elt Ideal) (scaled (V c main_v44) (V c main_v45)) := by
  show (cfg0.win 2).cut (grid0.coords t) ((dat0 (F := Ideal) V c).after 2 t) = _
  rw [after0_2]
  unfold out0_2
  rw [View.canon_unit_zero hz]
  simp only [View.ld_unit_zero (S := S16384x48) hz, View.ld_unit_zero (S := S16384) hz1]
  obtain ⟨e0, e1, e2, e3, e4⟩ := idx_facts t
  funext j
  obtain ⟨p, q, rfl⟩ : ∃ (p : Fin 16384) (q : Fin 48), j = ix2 p q := ⟨j 0, j 1, eq_ix2 j⟩
  have hp : p.val < 16384 := p.isLt
  have h0 : ((cfg0.win 0).blk t).view.emb (ix2 p q) = ((cfg0.win 2).blk t).view.emb (ix2 p q) := by
    funext a; apply Fin.ext
    match a with
    | ⟨0, _⟩ => show win0_0.index t (0 : Fin 2) * 16384 + 1 * p.val = win0_2.index t (0 : Fin 2) * 16384 + 1 * p.val; omega
    | ⟨1, _⟩ => show win0_0.index t (1 : Fin 2) * 48 + 1 * q.val = win0_2.index t (1 : Fin 2) * 48 + 1 * q.val; omega
  have h1 : ((cfg0.win 1).blk t).view.emb (ix1 p)
      = ix1 (⟨((((cfg0.win 2).blk t).view.emb (ix2 p q)) 0).val, idx2_lt0 _⟩ : Fin 1605632) := by
    funext a; apply Fin.ext
    match a with
    | ⟨0, _⟩ => show win0_1.index t (0 : Fin 1) * 16384 + 1 * p.val = win0_2.index t (0 : Fin 2) * 16384 + 1 * p.val; omega
  refine (pay_apply (iblk0 V c 0 t) (iblk0 V c 1 t) p q).trans ?_
  exact scaled_at (V c main_v44) (V c main_v45) (((cfg0.win 0).blk t).view.emb (ix2 p q))
    (((cfg0.win 2).blk t).view.emb (ix2 p q)) (((cfg0.win 1).blk t).view.emb (ix1 p)) h0 h1

/-- An index of the result array is in point `t`'s block iff each coordinate is in the block's range on its axis. -/
theorem mem_blk (t : Fin cfg0.N) (i : S1605632x48.Idx) :
    i ∈ ((cfg0.win 2).blk t).view.set ↔ ∀ a : Fin 2, win0_2.index t a * S16384x48.size a ≤ (i a).val
      ∧ (i a).val < win0_2.index t a * S16384x48.size a + S16384x48.size a := by
  show i ∈ ((View.whole main_v47).slice (win0_2.rect t)).set ↔ _
  rw [View.set_slice_whole, Rect.mem_set_unit]
  exact Iff.rfl

/-- The 98 blocks tile the result: row `e` lies in the block of point `e / 16384`. -/
theorem cover (i : S1605632x48.Idx) :
    ∃ t : Fin cfg0.N, (cfg0.win 2).flush t = true ∧ i ∈ ((cfg0.win 2).blk t).view.set := by
  have hi0 : (i 0).val < 1605632 := (i 0).isLt
  have hi1 : (i 1).val < 48 := (i 1).isLt
  have hN : cfg0.N = 98 := N_0
  have hlt : (i 0).val / 16384 < cfg0.N := by rw [hN]; omega
  obtain ⟨e0, e1, e2, e3, e4⟩ := idx_facts ⟨(i 0).val / 16384, hlt⟩
  refine ⟨⟨(i 0).val / 16384, hlt⟩, flush0_2 _, ?_⟩
  rw [mem_blk]
  intro a
  match a with
  | ⟨0, _⟩ =>
    show win0_2.index ⟨(i 0).val / 16384, hlt⟩ (0 : Fin 2) * 16384 ≤ (i 0).val
      ∧ (i 0).val < win0_2.index ⟨(i 0).val / 16384, hlt⟩ (0 : Fin 2) * 16384 + 16384
    rw [e3]
    show (i 0).val / 16384 * 16384 ≤ (i 0).val ∧ (i 0).val < (i 0).val / 16384 * 16384 + 16384
    omega
  | ⟨1, _⟩ =>
    show win0_2.index ⟨(i 0).val / 16384, hlt⟩ (1 : Fin 2) * 48 ≤ (i 1).val
      ∧ (i 1).val < win0_2.index ⟨(i 0).val / 16384, hlt⟩ (1 : Fin 2) * 48 + 48
    rw [e4]
    omega

/-- After the call the result array holds `scaled` of the two operand arrays as the call finds them. -/
theorem final (c : Dev nD) :
    (dat0 (F := Ideal) V c).arrAt 2 cfg0.N = scaled (V c main_v44) (V c main_v45) :=
  (dat0 (F := Ideal) V c).arrAt_eq_of_cover 2 (scaled (V c main_v44) (V c main_v45)) (fun t _ => flushed_eq V c t) cover

end Cert.KernelIdeal.ScaleValue

end
-- ==== Proof.LibRowsLayer.lean ====
/-
  The mathematics of a two-layer mean-aggregating graph network, on the extended reals.

  A dense layer on the rows of two arrays: entry (r, c) of `layer a x Wl Wr b` is
      max( Σ_q a(r,q)·Wl(q,c) + Σ_q x(r,q)·Wr(q,c) + b(c), 0 ),
  and a linear head: entry (r, c) of `head h W b` is Σ_q h(r,q)·W(q,c) + b(c).
  Both depend on row r of their row operands only, so a block of consecutive rows of the result
  is the same function of the same block of rows of the operands (`layer_rows`, `head_rows`).
-/
import Idealize.ShloMosaic.PureOps.Ideal
import Idealize.ShloMosaic.Lib.ValueIdx

noncomputable section

namespace Cert.Sage

open Idealize.ShloMosaic Idealize.ShloMosaic.ValueIdx
open scoped BigOperators

/-- A rank-2 array of extended reals. -/
abbrev Arr2 (n k : Nat) : Type := (⟨2, ![n, k]⟩ : Shape).Idx → EReal
/-- A rank-1 array of extended reals. -/
abbrev Arr1 (c : Nat) : Type := (⟨1, ![c]⟩ : Shape).Idx → EReal

variable {n N k c : Nat}

/-- The float zero both programs clip at. -/
def zeroF : EReal := Ideal.ofBits .f32 0x00000000#32

/-- The row coordinate of an index, as a number below the row extent. -/
abbrev rowOf {n c : Nat} (i : (⟨2, ![n, c]⟩ : Shape).Idx) : Fin n := ⟨(i 0).val, idx2_lt0 i⟩
/-- The column coordinate of an index, as a number below the column extent. -/
abbrev colOf {n c : Nat} (i : (⟨2, ![n, c]⟩ : Shape).Idx) : Fin c := ⟨(i 1).val, idx2_lt1 i⟩

/-- Rows against columns: entry (r, c) is Σ_q a(r,q)·W(q,c). -/
def rowsMul (a : Arr2 n k) (W : Arr2 k c) : Arr2 n c :=
  fun i => ∑ q : Fin k, a (ix2 (rowOf i) q) * W (ix2 q (colOf i))

/-- A row vector added to every row. -/
def addRow (v : Arr2 n c) (b : Arr1 c) : Arr2 n c := fun i => v i + b (ix1 (colOf i))

/-- One layer: the aggregated rows through `Wl`, the rows themselves through `Wr`, the bias, clipped below at zero. -/
def layer (a x : Arr2 n k) (Wl Wr : Arr2 k c) (b : Arr1 c) : Arr2 n c :=
  fun i => max (rowsMul a Wl i + rowsMul x Wr i + b (ix1 (colOf i))) zeroF

/-- A linear head. -/
def head (h : Arr2 n k) (W : Arr2 k c) (b : Arr1 c) : Arr2 n c :=
  fun i => rowsMul h W i + b (ix1 (colOf i))

/-- `rowsMul` at row `r` reads row `r` of its row operand only. -/
theorem rowsMul_rows (A : Arr2 N k) (a : Arr2 n k) (W : Arr2 k c) (I : (⟨2, ![N, c]⟩ : Shape).Idx)
    (i : (⟨2, ![n, c]⟩ : Shape).Idx) (hc : (I 1).val = (i 1).val)
    (ha : ∀ q : Fin k, A (ix2 (rowOf I) q) = a (ix2 (rowOf i) q)) :
    rowsMul A W I = rowsMul a W i := by
  unfold rowsMul
  refine Finset.sum_congr rfl fun q _ => ?_
  rw [ha q]
  have : colOf I = colOf i := Fin.ext hc
  rw [this]

/-- A block of rows of a layer is the layer of the blocks of rows. -/
theorem layer_rows (A X : Arr2 N k) (a x : Arr2 n k) (Wl Wr : Arr2 k c) (b : Arr1 c)
    (I : (⟨2, ![N, c]⟩ : Shape).Idx) (i : (⟨2, ![n, c]⟩ : Shape).Idx) (hc : (I 1).val = (i 1).val)
    (ha : ∀ q : Fin k, A (ix2 (rowOf I) q) = a (ix2 (rowOf i) q))
    (hx : ∀ q : Fin k, X (ix2 (rowOf I) q) = x (ix2 (rowOf i) q)) :
    layer A X Wl Wr b I = layer a x Wl Wr b i := by
  unfold layer
  rw [rowsMul_rows A a Wl I i hc ha, rowsMul_rows X x Wr I i hc hx]
  have : colOf I = colOf i := Fin.ext hc
  rw [this]

/-- A block of rows of a head is the head of the block of rows. -/
theorem head_rows (H : Arr2 N k) (h : Arr2 n k) (W : Arr2 k c) (b : Arr1 c)
    (I : (⟨2, ![N, c]⟩ : Shape).Idx) (i : (⟨2, ![n, c]⟩ : Shape).Idx) (hc : (I 1).val = (i 1).val)
    (hh : ∀ q : Fin k, H (ix2 (rowOf I) q) = h (ix2 (rowOf i) q)) :
    head H W b I = head h W b i := by
  unfold head
  rw [rowsMul_rows H h W I i hc hh]
  have : colOf I = colOf i := Fin.ext hc
  rw [this]

end Cert.Sage

end
-- ==== Proof.LibRowsDot.lean ====
/-
  A plain matrix product read as rows against columns.

  A `tpu.matmul` of an [n, k] array with a [k, c] array into a zero accumulator, whose dimension numbers
  contract the second axis of the left operand with the first of the right and keep the other two in
  order, is at entry (p, q) the sum over the contraction position of left(p, ·)·right(·, q): `rowsMul`.
  The four coordinate facts of the dimension numbers are hypotheses (each record proves them by unfolding).
-/
import proofs.«113284_j33449205301469_1_alg».proof.Proof.LibRowsLayer
import Idealize.ShloMosaic.PureOps.Ideal.Laws

noncomputable section

namespace Cert.Sage

open Idealize.ShloMosaic Idealize.ShloMosaic.ValueIdx
open scoped BigOperators

/-- The matrix product into zeros, at entry (p, q), is the row–column sum. -/
theorem matmul_zero_rows {n k c : Nat} {φ₁ φ₂ : FTy}
    (D : DotDims ⟨2, ![n, k]⟩ ⟨2, ![k, c]⟩ ⟨2, ![n, c]⟩) (hr : D.contr.rank = 1)
    (hs : D.contr.size ⟨0, by omega⟩ = k)
    (l0 : ∀ (i : (⟨2, ![n, c]⟩ : Shape).Idx) (q : D.contr.Idx), (D.lhsIdx i q 0).val = (i 0).val)
    (l1 : ∀ (i : (⟨2, ![n, c]⟩ : Shape).Idx) (q : D.contr.Idx), (D.lhsIdx i q 1).val = (q ⟨0, by omega⟩).val)
    (r0 : ∀ (i : (⟨2, ![n, c]⟩ : Shape).Idx) (q : D.contr.Idx), (D.rhsIdx i q 0).val = (q ⟨0, by omega⟩).val)
    (r1 : ∀ (i : (⟨2, ![n, c]⟩ : Shape).Idx) (q : D.contr.Idx), (D.rhsIdx i q 1).val = (i 1).val)
    (prec : Option ContractPrecision) (a : FVec Ideal ⟨2, ![n, k]⟩ φ₁) (W : FVec Ideal ⟨2, ![k, c]⟩ φ₂)
    (p : Fin n) (q : Fin c) :
    matmul D prec a W (constant ⟨2, ![n, c]⟩ .f32 0x00000000#32) (ix2 p q) = rowsMul (n := n) (k := k) (c := c) a W (ix2 p q) := by
  show FloatOps.matmul D prec a W (constant ⟨2, ![n, c]⟩ .f32 0x00000000#32) (ix2 p q) = _
  rw [Ideal.matmul_constant_zero_apply, ← Equiv.sum_comp (contrEquiv1 D k hr hs).symm]
  unfold rowsMul
  refine Finset.sum_congr rfl fun j _ => ?_
  have hk := contrEquiv1_symm_val D k hr hs j
  have el : D.lhsIdx (ix2 p q) ((contrEquiv1 D k hr hs).symm j) = ix2 p j := funext fun ax => Fin.ext (by
    match ax with
    | ⟨0, _⟩ => exact l0 _ _
    | ⟨1, _⟩ => exact (l1 _ _).trans hk)
  have er : D.rhsIdx (ix2 p q) ((contrEquiv1 D k hr hs).symm j) = ix2 j q := funext fun ax => Fin.ext (by
    match ax with
    | ⟨0, _⟩ => exact (r0 _ _).trans hk
    | ⟨1, _⟩ => exact r1 _ _)
  rw [el, er]
  rfl

end Cert.Sage

end
-- ==== Proof.NodeSpec.lean ====
/-
  What a node's output row is: the linear layer on the aggregated rows, clipped below at zero.

  For an array `A` of `n` rows of 48 aggregated features, a 48×48 weight matrix `W` stored output-major (row `o`
  holds the weights of output feature `o`) and a bias `b`, entry (r, o) of the layer's output is
      max( Σ_k A(r, k) · W(o, k) + b(o), 0 ).
  It depends on row `r` of `A` only, so an entry of the layer computed on a block of consecutive rows is the entry
  of the layer on the whole array at the row the block's row came from (`nodeOut_at`).
-/
import proofs.«113284_j33449205301469_1_alg».proof.Proof.LibRowsLayer

noncomputable section

namespace Cert.NodeSpec

open Idealize.ShloMosaic Idealize.ShloMosaic.ValueIdx Cert.Sage
open scoped BigOperators

variable {n N : Nat}

/-- The linear layer, against the weight matrix's rows, plus the bias, clipped below at zero. -/
def nodeOut (A : Arr2 n 48) (W : Arr2 48 48) (b : Arr1 48) : Arr2 n 48 :=
  fun i => max ((∑ k : Fin 48, A (ix2 (rowOf i) k) * W (ix2 (colOf i) k)) + b (ix1 (colOf i))) zeroF

/-- An entry of the layer on a block of rows, with weights and bias that agree entry by entry with `W` and `b`, is the
    layer's entry on the whole array at the index `I` whose row holds the block's row `p` and whose column is `o`. -/
theorem nodeOut_at (A : Arr2 N 48) (a : Arr2 n 48) (W W' : Arr2 48 48) (b b' : Arr1 48)
    (I : (⟨2, ![N, 48]⟩ : Shape).Idx) (p : Fin n) (o : Fin 48)
    (hW : ∀ (o k : Fin 48), W' (ix2 o k) = W (ix2 o k)) (hb : ∀ o : Fin 48, b' (ix1 o) = b (ix1 o))
    (hc : (I 1).val = o.val) (ha : ∀ k : Fin 48, A (ix2 (rowOf I) k) = a (ix2 p k)) :
    nodeOut a W' b' (ix2 p o) = nodeOut A W b I := by
  unfold nodeOut
  have hcol : colOf I = o := Fin.ext hc
  rw [hcol]
  show max ((∑ k : Fin 48, a (ix2 p k) * W' (ix2 o k)) + b' (ix1 o)) zeroF
    = max ((∑ k : Fin 48, A (ix2 (rowOf I) k) * W (ix2 o k)) + b (ix1 o)) zeroF
  rw [hb o]
  refine congrArg (fun s => max (s + b (ix1 o)) zeroF) ?_
  exact Finset.sum_congr rfl fun k _ => by rw [ha k, hW o k]

end Cert.NodeSpec

end
-- ==== Proof.LinReluValue.lean ====
/-
  The second pallas_call: the linear layer on the aggregated rows, clipped at zero.

  The call's grid has 10 points; point t works on node rows 10000·t … 10000·t + 9999: it loads that block of the
  [100000, 48] aggregate, the whole weight matrix and the whole bias, multiplies the block by the transposed weights
  (into a zero accumulator; the narrowing of both operands is the identity on the extended reals), adds the bias to
  every row, clips at zero, and stores the result as block t. Entry (p, o) of the block is therefore
      max( Σ_k blk(p, k) · W(o, k) + b(o), 0 ),
  the restriction to the block's rows of `nodeOut` of the whole aggregate; the 10 blocks tile the result.
-/
import proofs.«113284_j33449205301469_1_alg».proof.Proof.Gen.KernelIdeal.Frame
import proofs.«113284_j33449205301469_1_alg».proof.Proof.LibRowsDot
import proofs.«113284_j33449205301469_1_alg».proof.Proof.NodeSpec
import Idealize.ShloMosaic.Lib.Pipeline.Value
import Idealize.ShloMosaic.Lib.ValueIdx
import Idealize.ShloMosaic.Lib.ValueLayout

set_option maxRecDepth 16384

noncomputable section

namespace Cert.KernelIdeal.LinReluValue

open Cert.KernelIdeal Cert.KernelIdeal.Gen
open Idealize.ShloMosaic Idealize.ShloMosaic.TcCoe Idealize.SL.Sem Idealize.ShloMosaic.ValueIdx
open Idealize.ShloMosaic.Pipeline (Dat)
open Cert.Sage Cert.NodeSpec

/-- The body's matrix product: [10000, 48] against [48, 48], the second axis of the left contracted with the first of
    the right. -/
abbrev D : DotDims S10000x48 S48x48 S10000x48 := dot_S10000x48_S48x48_S10000x48_1_0_0_1_n_n

theorem l0 (i : S10000x48.Idx) (q : D.contr.Idx) : (D.lhsIdx i q 0).val = (i 0).val := by
  unfold DotDims.lhsIdx
  rw [dif_neg (show ¬(0 : Fin S10000x48.rank) ∈ D.lhsBatch by decide), dif_pos (show (0 : Fin S10000x48.rank) ∈ D.lhsNonContracting by decide)]
  rfl
theorem l1 (i : S10000x48.Idx) (q : D.contr.Idx) : (D.lhsIdx i q 1).val = (q ⟨0, by decide⟩).val :=
  D.lhsIdx_val_of_single rfl i q
theorem r0 (i : S10000x48.Idx) (q : D.contr.Idx) : (D.rhsIdx i q 0).val = (q ⟨0, by decide⟩).val :=
  D.rhsIdx_val_of_single rfl i q
theorem r1 (i : S10000x48.Idx) (q : D.contr.Idx) : (D.rhsIdx i q 1).val = (i 1).val := by
  unfold DotDims.rhsIdx
  rw [dif_neg (show ¬(1 : Fin S48x48.rank) ∈ D.rhsBatch by decide), dif_pos (show (1 : Fin S48x48.rank) ∈ D.rhsNonContracting by decide)]
  rfl

/-- The body's value at row `p`, output feature `o` of a block is the layer's output there. -/
theorem pay_apply (x0 : Vec Ideal S10000x48 .f32) (x1 : Vec Ideal S48x48 .f32) (x2 : Vec Ideal S48 .f32) (p : Fin 10000) (o : Fin 48) :
    k1_pay1 x0 x1 x2 (ix2 p o) = nodeOut (n := 10000) x0 x1 x2 (ix2 p o) := by
  unfold k1_pay1
  refine (maximumf_apply _ _ _).trans ?_
  unfold nodeOut
  refine congrArg₂ max ?_ rfl
  refine (addf_apply _ _ _).trans ?_
  refine congrArg₂ (· + ·) ?_ ?_
  · refine (matmul_zero_rows D rfl rfl l0 l1 r0 r1 none _ _ p o).trans ?_
    unfold rowsMul
    refine Finset.sum_congr rfl fun k _ => ?_
    have e1 : (truncf FTy.bf16 (shapeCast S10000x48 x0 shapeCasts_S10000x48_S10000x48) bitsLt_bf16_f32 : FVec Ideal S10000x48 .bf16)
        (ix2 (rowOf (ix2 p o)) k) = x0 (ix2 (rowOf (ix2 p o)) k) := by
      rw [shapeCast_self]; rfl
    refine congrArg₂ (· * ·) e1 ?_
    exact transpose_ix2_apply _ _ k o
  · rw [broadcastTo_1b_ab_apply, shapeCast_a_1a_apply]

theorem hz : (![0, 0] : Fin 2 → Nat) = fun _ => 0 := funext fun a => by fin_cases a <;> rfl
theorem hz1 : (![0] : Fin 1 → Nat) = fun _ => 0 := funext fun a => by fin_cases a; rfl

/-- The index maps: the aggregate's and the result's send point `t` to block `t` of the node axis; the weights' and
    the bias's always to their one block. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of `nodeOut` of the aggregate, the weights and the bias as the call
    finds them. -/
theorem flushed_eq (c : Dev nD) (t : Fin cfg1.N) :
    (dat1 (F := Ideal) V c).flushed 3 t
      = ((cfg1.win 3).blk t).view.read (Elt Ideal) (nodeOut (n := 100000) (V c main_v50) (V c main_arg2) (V c main_arg3)) := by
  show (cfg1.win 3).cut (grid1.coords t) ((dat1 (F := Ideal) V c).after 3 t) = _
  rw [after1_3]
  unfold out1_3
  rw [View.canon_unit_zero hz]
  simp only [View.ld_unit_zero (S := S10000x48) hz, View.ld_unit_zero (S := S48x48) hz, View.ld_unit_zero (S := S48) hz1]
  obtain ⟨e0, e1, e2, e3, e4, e5, e6⟩ := idx_facts t
  funext j
  obtain ⟨p, o, rfl⟩ : ∃ (p : Fin 10000) (o : Fin 48), j = ix2 p o := ⟨j 0, j 1, eq_ix2 j⟩
  have hp : p.val < 10000 := p.isLt
  refine (pay_apply (iblk1 V c 0 t) (iblk1 V c 1 t) (iblk1 V c 2 t) p o).trans ?_
  refine nodeOut_at (V c main_v50) (iblk1 V c 0 t) (V c main_arg2) (iblk1 V c 1 t) (V c main_arg3) (iblk1 V c 2 t)
    (((cfg1.win 3).blk t).view.emb (ix2 p o)) p o (fun o' k => ?_) (fun o' => ?_) ?_ (fun k => ?_)
  · show V c main_arg2 (((cfg1.win 1).blk t).view.emb (ix2 o' k)) = V c main_arg2 (ix2 o' k)
    refine congrArg _ ?_
    funext a; apply Fin.ext
    match a with
    | ⟨0, _⟩ => show win1_1.index t (0 : Fin 2) * 48 + 1 * o'.val = o'.val; omega
    | ⟨1, _⟩ => show win1_1.index t (1 : Fin 2) * 48 + 1 * k.val = k.val; omega
  · show V c main_arg3 (((cfg1.win 2).blk t).view.emb (ix1 o')) = V c main_arg3 (ix1 o')
    refine congrArg _ ?_
    funext a; apply Fin.ext
    match a with
    | ⟨0, _⟩ => show win1_2.index t (0 : Fin 1) * 48 + 1 * o'.val = o'.val; omega
  · show win1_3.index t (1 : Fin 2) * 48 + 1 * o.val = o.val; omega
  · show V c main_v50 (ix2 (rowOf (((cfg1.win 3).blk t).view.emb (ix2 p o))) k) = V c main_v50 (((cfg1.win 0).blk t).view.emb (ix2 p k))
    refine congrArg _ ?_
    funext a; apply Fin.ext
    match a with
    | ⟨0, _⟩ => show win1_3.index t (0 : Fin 2) * 10000 + 1 * p.val = win1_0.index t (0 : Fin 2) * 10000 + 1 * p.val; omega
    | ⟨1, _⟩ => show k.val = win1_0.index t (1 : Fin 2) * 48 + 1 * k.val; omega

/-- An index of the result array is in point `t`'s block iff each coordinate is in the block's range on its axis. -/
theorem mem_blk (t : Fin cfg1.N) (i : S100000x48.Idx) :
    i ∈ ((cfg1.win 3).blk t).view.set ↔ ∀ a : Fin 2, win1_3.index t a * S10000x48.size a ≤ (i a).val
      ∧ (i a).val < win1_3.index t a * S10000x48.size a + S10000x48.size a := by
  show i ∈ ((View.whole main_v51).slice (win1_3.rect t)).set ↔ _
  rw [View.set_slice_whole, Rect.mem_set_unit]
  exact Iff.rfl

/-- The 10 blocks tile the result: node row `r` lies in the block of point `r / 10000`. -/
theorem cover (i : S100000x48.Idx) :
    ∃ t : Fin cfg1.N, (cfg1.win 3).flush t = true ∧ i ∈ ((cfg1.win 3).blk t).view.set := by
  have hi0 : (i 0).val < 100000 := (i 0).isLt
  have hi1 : (i 1).val < 48 := (i 1).isLt
  have hN : cfg1.N = 10 := N_1
  have hlt : (i 0).val / 10000 < cfg1.N := by rw [hN]; omega
  obtain ⟨e0, e1, e2, e3, e4, e5, e6⟩ := idx_facts ⟨(i 0).val / 10000, hlt⟩
  refine ⟨⟨(i 0).val / 10000, hlt⟩, flush1_3 _, ?_⟩
  rw [mem_blk]
  intro a
  match a with
  | ⟨0, _⟩ =>
    show win1_3.index ⟨(i 0).val / 10000, hlt⟩ (0 : Fin 2) * 10000 ≤ (i 0).val
      ∧ (i 0).val < win1_3.index ⟨(i 0).val / 10000, hlt⟩ (0 : Fin 2) * 10000 + 10000
    rw [e5]
    show (i 0).val / 10000 * 10000 ≤ (i 0).val ∧ (i 0).val < (i 0).val / 10000 * 10000 + 10000
    omega
  | ⟨1, _⟩ =>
    show win1_3.index ⟨(i 0).val / 10000, hlt⟩ (1 : Fin 2) * 48 ≤ (i 1).val
      ∧ (i 1).val < win1_3.index ⟨(i 0).val / 10000, hlt⟩ (1 : Fin 2) * 48 + 48
    rw [e6]
    omega

/-- After the call the result array holds `nodeOut` of the aggregate, the weights and the bias as the call finds them. -/
theorem final (c : Dev nD) :
    (dat1 (F := Ideal) V c).arrAt 3 cfg1.N = nodeOut (n := 100000) (V c main_v50) (V c main_arg2) (V c main_arg3) :=
  (dat1 (F := Ideal) V c).arrAt_eq_of_cover 3 (nodeOut (n := 100000) (V c main_v50) (V c main_arg2) (V c main_arg3))
    (fun t _ => flushed_eq V c t) cover

end Cert.KernelIdeal.LinReluValue

end
-- ==== Proof.LibScatterRows.lean ====
/-
  SCATTER-ADD OF ROWS, read at one element.

  The operand is an `n × c` array, the updates an `E × c` array, and the scatter indices an `E × 1` array of
  integers: update row `e` carries ONE row number `k e` (read signed) and is added, column by column, into operand
  row `k e`; an update row whose number is outside `[0, n)` is dropped. The dimension numbers enter only through
  four coordinate facts: the window starts at `(k e, 0)` and the window coordinate of update index `(e, f)` is `(0, f)`.

  (A) `resultIdx?_rows`: update `(e, f)` lands on operand element `(p, q)` exactly when `k e = p` and `f = q`.
  (B) `hostScatterAdd_rows_apply`: so the exact scatter-add read at `(p, q)` is `x (p, q) + ∑_{e : k e = p} upd (e, q)`.
  (C) `sum_filter_padded`: a keyed sum `∑_{e : key e = t} val e` is unchanged when the family is extended by further
      rows whose VALUE is zero, whatever keys those rows carry.
-/
import Idealize.ShloMosaic.PureOps.Ideal
import Idealize.ShloMosaic.Lib.ValueIdx

noncomputable section

open scoped BigOperators

namespace Cert.LibScatterRows

open Idealize.ShloMosaic Idealize.ShloMosaic.ValueIdx

variable {n c E E' w : ℕ}

/-- (A) where an update lands, from four coordinate facts of the record -/
theorem resultIdx?_rows (d : ScatterDims ⟨2, ![n, c]⟩ ⟨2, ![E, 1]⟩ ⟨2, ![E, c]⟩)
    (hs0 : ∀ (j : (⟨2, ![E, c]⟩ : Shape).Idx) (idx : IVec ⟨2, ![E, 1]⟩ w),
      d.start j idx 0 = (idx (ix2 (⟨(j 0).val, idx2_lt0 j⟩ : Fin E) (0 : Fin 1))).toInt)
    (hs1 : ∀ (j : (⟨2, ![E, c]⟩ : Shape).Idx) (idx : IVec ⟨2, ![E, 1]⟩ w), d.start j idx 1 = 0)
    (hw0 : ∀ j : (⟨2, ![E, c]⟩ : Shape).Idx, d.window j 0 = 0)
    (hw1 : ∀ j : (⟨2, ![E, c]⟩ : Shape).Idx, d.window j 1 = (j 1).val)
    (idx : IVec ⟨2, ![E, 1]⟩ w) (e : Fin E) (f : Fin c) (p : Fin n) (q : Fin c) :
    d.resultIdx? (ix2 e f) idx = some (ix2 p q) ↔ (idx (ix2 e (0 : Fin 1))).toInt = (p.val : ℤ) ∧ f = q := by
  -- the four facts at the update index `(e, f)`
  have hst0 : d.start (ix2 e f) idx 0 = (idx (ix2 e (0 : Fin 1))).toInt := hs0 (ix2 e f) idx
  have hst1 : d.start (ix2 e f) idx 1 = 0 := hs1 (ix2 e f) idx
  have hwi0 : d.window (ix2 e f) 0 = 0 := hw0 (ix2 e f)
  have hwi1 : d.window (ix2 e f) 1 = f.val := hw1 (ix2 e f)
  have hp : p.val < n := p.isLt
  have hf : f.val < c := f.isLt
  have hn : (⟨2, ![n, c]⟩ : Shape).size 0 = n := rfl
  have hc : (⟨2, ![n, c]⟩ : Shape).size 1 = c := rfl
  unfold ScatterDims.resultIdx?
  by_cases h : ∀ a, 0 ≤ d.start (ix2 e f) idx a + d.window (ix2 e f) a ∧
      d.start (ix2 e f) idx a + d.window (ix2 e f) a < (⟨2, ![n, c]⟩ : Shape).size a
  · rw [dif_pos h]
    have h0 := h 0
    rw [hst0, hwi0, hn] at h0
    constructor
    · intro heq
      have heq' := Option.some.inj heq
      have e0 : (d.start (ix2 e f) idx 0 + d.window (ix2 e f) 0).toNat = p.val :=
        congrArg (fun g : (⟨2, ![n, c]⟩ : Shape).Idx => (g 0).val) heq'
      have e1 : (d.start (ix2 e f) idx 1 + d.window (ix2 e f) 1).toNat = q.val :=
        congrArg (fun g : (⟨2, ![n, c]⟩ : Shape).Idx => (g 1).val) heq'
      rw [hst0, hwi0] at e0
      rw [hst1, hwi1] at e1
      refine ⟨by omega, Fin.ext (by omega)⟩
    · rintro ⟨hk, rfl⟩
      congr 1
      funext a
      revert a
      rw [Fin.forall_fin_two]
      refine ⟨Fin.ext ?_, Fin.ext ?_⟩
      · show (d.start (ix2 e f) idx 0 + d.window (ix2 e f) 0).toNat = p.val
        rw [hst0, hwi0]; omega
      · show (d.start (ix2 e f) idx 1 + d.window (ix2 e f) 1).toNat = f.val
        rw [hst1, hwi1]; omega
  · rw [dif_neg h]
    constructor
    · intro heq; exact absurd heq (by simp)
    · rintro ⟨hk, -⟩
      exfalso
      apply h
      rw [Fin.forall_fin_two]
      refine ⟨?_, ?_⟩
      · rw [hst0, hwi0, hn]; omega
      · rw [hst1, hwi1, hc]; omega

/-- (B) the scatter-add of rows read at `(p, q)`: the operand there plus the sum, over the update rows whose index is
    `p`, of their entry in column `q` -/
theorem hostScatterAdd_rows_apply (d : ScatterDims ⟨2, ![n, c]⟩ ⟨2, ![E, 1]⟩ ⟨2, ![E, c]⟩)
    (hs0 : ∀ (j : (⟨2, ![E, c]⟩ : Shape).Idx) (idx : IVec ⟨2, ![E, 1]⟩ w),
      d.start j idx 0 = (idx (ix2 (⟨(j 0).val, idx2_lt0 j⟩ : Fin E) (0 : Fin 1))).toInt)
    (hs1 : ∀ (j : (⟨2, ![E, c]⟩ : Shape).Idx) (idx : IVec ⟨2, ![E, 1]⟩ w), d.start j idx 1 = 0)
    (hw0 : ∀ j : (⟨2, ![E, c]⟩ : Shape).Idx, d.window j 0 = 0)
    (hw1 : ∀ j : (⟨2, ![E, c]⟩ : Shape).Idx, d.window j 1 = (j 1).val)
    (x : (⟨2, ![n, c]⟩ : Shape).Idx → EReal) (idx : IVec ⟨2, ![E, 1]⟩ w)
    (upd : (⟨2, ![E, c]⟩ : Shape).Idx → EReal) (p : Fin n) (q : Fin c) :
    Ideal.hostScatterAdd d x idx upd (ix2 p q)
      = x (ix2 p q) + ∑ e ∈ Finset.univ.filter (fun e : Fin E => (idx (ix2 e (0 : Fin 1))).toInt = (p.val : ℤ)),
          upd (ix2 e q) := by
  unfold Ideal.hostScatterAdd
  congr 1
  -- both sides as sums of `if`s; the left one split into the double sum over the coordinates `(e, f)`
  rw [Finset.sum_filter, sum_idx2, Finset.sum_filter]
  refine Finset.sum_congr rfl fun e _ => ?_
  simp only [resultIdx?_rows d hs0 hs1 hw0 hw1]
  by_cases hk : (idx (ix2 e (0 : Fin 1))).toInt = (p.val : ℤ)
  · -- row `e` is sent to row `p`: of its entries only the one in column `q` lands on `(p, q)`
    simp only [hk, true_and, if_true]
    rw [Finset.sum_ite_eq' Finset.univ q (fun f => upd (ix2 e f))]
    simp
  · -- row `e` is sent elsewhere (or dropped): none of its entries lands on `(p, q)`
    simp only [hk, false_and, if_false]
    exact Finset.sum_const_zero

/-- (C) rows appended with value zero do not change such a sum, whatever keys they carry -/
theorem sum_filter_padded (hE : E ≤ E') (key : Fin E → ℤ) (key' : Fin E' → ℤ) (val : Fin E → EReal)
    (val' : Fin E' → EReal)
    (hk : ∀ e : Fin E, key' (Fin.castLE hE e) = key e) (hv : ∀ e : Fin E, val' (Fin.castLE hE e) = val e)
    (hz : ∀ e' : Fin E', E ≤ e'.val → val' e' = 0) (t : ℤ) :
    ∑ e' ∈ Finset.univ.filter (fun e' : Fin E' => key' e' = t), val' e'
      = ∑ e ∈ Finset.univ.filter (fun e : Fin E => key e = t), val e := by
  rw [Finset.sum_filter, Finset.sum_filter]
  -- the short sum is the long one restricted to the image of `Fin E` in `Fin E'` …
  have himg : ∑ e : Fin E, (if key e = t then val e else 0)
      = ∑ e' ∈ Finset.univ.map (Fin.castLEEmb hE), (if key' e' = t then val' e' else 0) := by
    rw [Finset.sum_map]
    refine Finset.sum_congr rfl fun e _ => ?_
    show _ = if key' (Fin.castLE hE e) = t then val' (Fin.castLE hE e) else 0
    rw [hk, hv]
  rw [himg]
  symm
  -- … and outside that image every term is zero
  refine Finset.sum_subset (Finset.subset_univ _) fun e' _ hn => ?_
  have hge : E ≤ e'.val := by
    by_contra hlt
    exact hn (Finset.mem_map.2 ⟨⟨e'.val, Nat.lt_of_not_le hlt⟩, Finset.mem_univ _, Fin.ext rfl⟩)
  rw [hz e' hge]
  exact ite_self 0

end Cert.LibScatterRows

end
-- ==== Proof.ScatterBridge.lean ====
/-
  THE TWO PROGRAMS' ROW SCATTER-ADDS AGREE.

  The reference program adds `1600000` update rows of `48` columns into a `100000 × 48` operand, row `e` into the
  operand row whose number the scatter indices carry for `e`. The kernel program does the same with the update rows and
  the scatter indices extended to `1605632` rows. When the operands agree, the first `1600000` rows of the kernel's
  indices and updates are the reference's, and every further update row of the kernel is zero, the two results are the
  same array: read at `(p, q)` each is the operand there plus the sum, over the update rows sent to `p`, of their entry
  in column `q`, and the rows appended with value zero add nothing to that sum whatever row numbers they carry.
-/
import proofs.«113284_j33449205301469_1_alg».proof.KernelIdeal
import proofs.«113284_j33449205301469_1_alg».proof.ReferenceIdeal
import proofs.«113284_j33449205301469_1_alg».proof.Proof.LibScatterRows
import Idealize.ShloMosaic.PureOps.Ideal
import Idealize.ShloMosaic.Lib.ValueIdx

noncomputable section

open scoped BigOperators

namespace Cert.ScatterBridge

open Idealize.ShloMosaic Idealize.ShloMosaic.ValueIdx

variable [Cert.KernelIdeal.Facts] [Cert.ReferenceIdeal.Facts]

/-! ## The four coordinate facts of each program's scatter dimension numbers

Both records have update window axes `[1]`, inserted window axes `[0]`, the scatter indices addressing operand axis
`0`, and the index vector on axis `1` of the scatter indices. None of the facts looks at the record's well-formedness
field or at an extent. -/

/-- The window of update row `j` of the kernel scatter starts, on the row axis, at the row number that row carries. -/
private theorem kernel_hs0 (j : (⟨2, ![1605632, 48]⟩ : Shape).Idx) (idx : IVec ⟨2, ![1605632, 1]⟩ 32) :
    Cert.KernelIdeal.scatter_S100000x48_S1605632x1_S1605632x48_1_0_0_1.start j idx 0
      = (idx (ix2 (⟨(j 0).val, idx2_lt0 j⟩ : Fin 1605632) (0 : Fin 1))).toInt := by
  unfold ScatterDims.start
  rw [dif_pos (show (0 : Fin 2) ∈ Cert.KernelIdeal.scatter_S100000x48_S1605632x1_S1605632x48_1_0_0_1.scatterDimsToOperandDims
    from List.mem_singleton.mpr rfl)]
  congr 2
  funext b
  refine Fin.ext ?_
  match b with
  | ⟨0, _⟩ => rfl
  | ⟨1, _⟩ => rfl

/-- On the column axis, which the scatter indices do not address, it starts at `0`. -/
private theorem kernel_hs1 (j : (⟨2, ![1605632, 48]⟩ : Shape).Idx) (idx : IVec ⟨2, ![1605632, 1]⟩ 32) :
    Cert.KernelIdeal.scatter_S100000x48_S1605632x1_S1605632x48_1_0_0_1.start j idx 1 = 0 := rfl

/-- The row axis is an inserted window axis: the window coordinate there is `0`. -/
private theorem kernel_hw0 (j : (⟨2, ![1605632, 48]⟩ : Shape).Idx) :
    Cert.KernelIdeal.scatter_S100000x48_S1605632x1_S1605632x48_1_0_0_1.window j 0 = 0 := rfl

/-- The column axis is the one window axis: the window coordinate there is the update's column. -/
private theorem kernel_hw1 (j : (⟨2, ![1605632, 48]⟩ : Shape).Idx) :
    Cert.KernelIdeal.scatter_S100000x48_S1605632x1_S1605632x48_1_0_0_1.window j 1 = (j 1).val := rfl

/-- The window of update row `j` of the reference scatter starts, on the row axis, at the row number that row carries. -/
private theorem reference_hs0 (j : (⟨2, ![1600000, 48]⟩ : Shape).Idx) (idx : IVec ⟨2, ![1600000, 1]⟩ 32) :
    Cert.ReferenceIdeal.scatter_S100000x48_S1600000x1_S1600000x48_1_0_0_1.start j idx 0
      = (idx (ix2 (⟨(j 0).val, idx2_lt0 j⟩ : Fin 1600000) (0 : Fin 1))).toInt := by
  unfold ScatterDims.start
  rw [dif_pos (show (0 : Fin 2) ∈ Cert.ReferenceIdeal.scatter_S100000x48_S1600000x1_S1600000x48_1_0_0_1.scatterDimsToOperandDims
    from List.mem_singleton.mpr rfl)]
  congr 2
  funext b
  refine Fin.ext ?_
  match b with
  | ⟨0, _⟩ => rfl
  | ⟨1, _⟩ => rfl

/-- On the column axis, which the scatter indices do not address, it starts at `0`. -/
private theorem reference_hs1 (j : (⟨2, ![1600000, 48]⟩ : Shape).Idx) (idx : IVec ⟨2, ![1600000, 1]⟩ 32) :
    Cert.ReferenceIdeal.scatter_S100000x48_S1600000x1_S1600000x48_1_0_0_1.start j idx 1 = 0 := rfl

/-- The row axis is an inserted window axis: the window coordinate there is `0`. -/
private theorem reference_hw0 (j : (⟨2, ![1600000, 48]⟩ : Shape).Idx) :
    Cert.ReferenceIdeal.scatter_S100000x48_S1600000x1_S1600000x48_1_0_0_1.window j 0 = 0 := rfl

/-- The column axis is the one window axis: the window coordinate there is the update's column. -/
private theorem reference_hw1 (j : (⟨2, ![1600000, 48]⟩ : Shape).Idx) :
    Cert.ReferenceIdeal.scatter_S100000x48_S1600000x1_S1600000x48_1_0_0_1.window j 1 = (j 1).val := rfl

/-! ## The two scatter-adds -/

/-- The kernel program's scatter-add over the padded updates and indices is the reference program's over the
    unpadded ones. -/
theorem scatterAdd_padded_eq
    (xK : Cert.KernelIdeal.S100000x48.Idx → EReal) (xR : Cert.ReferenceIdeal.S100000x48.Idx → EReal)
    (idxK : IVec Cert.KernelIdeal.S1605632x1 32) (idxR : IVec Cert.ReferenceIdeal.S1600000x1 32)
    (updK : Cert.KernelIdeal.S1605632x48.Idx → EReal) (updR : Cert.ReferenceIdeal.S1600000x48.Idx → EReal)
    (hx : ∀ (p : Fin 100000) (q : Fin 48), xK (ix2 p q) = xR (ix2 p q))
    (hidx : ∀ e : Fin 1600000,
      idxK (ix2 (Fin.castLE (by decide : 1600000 ≤ 1605632) e) (0 : Fin 1)) = idxR (ix2 e (0 : Fin 1)))
    (hupd : ∀ (e : Fin 1600000) (f : Fin 48),
      updK (ix2 (Fin.castLE (by decide : 1600000 ≤ 1605632) e) f) = updR (ix2 e f))
    (hzero : ∀ (e' : Fin 1605632) (f : Fin 48), 1600000 ≤ e'.val → updK (ix2 e' f) = 0) :
    Host.scatterAdd (F := Ideal) (φ := .f32) Cert.KernelIdeal.scatter_S100000x48_S1605632x1_S1605632x48_1_0_0_1 xK idxK updK
      = Host.scatterAdd (F := Ideal) (φ := .f32) Cert.ReferenceIdeal.scatter_S100000x48_S1600000x1_S1600000x48_1_0_0_1 xR idxR updR := by
  funext i
  obtain ⟨p, q, rfl⟩ : ∃ (p : Fin 100000) (q : Fin 48), i = ix2 p q := ⟨i 0, i 1, eq_ix2 i⟩
  -- at the ideal instance each side is the exact sum
  show Ideal.hostScatterAdd Cert.KernelIdeal.scatter_S100000x48_S1605632x1_S1605632x48_1_0_0_1 xK idxK updK (ix2 p q)
    = Ideal.hostScatterAdd Cert.ReferenceIdeal.scatter_S100000x48_S1600000x1_S1600000x48_1_0_0_1 xR idxR updR (ix2 p q)
  rw [LibScatterRows.hostScatterAdd_rows_apply Cert.KernelIdeal.scatter_S100000x48_S1605632x1_S1605632x48_1_0_0_1
      kernel_hs0 kernel_hs1 kernel_hw0 kernel_hw1,
    LibScatterRows.hostScatterAdd_rows_apply Cert.ReferenceIdeal.scatter_S100000x48_S1600000x1_S1600000x48_1_0_0_1
      reference_hs0 reference_hs1 reference_hw0 reference_hw1,
    hx]
  refine congrArg (fun s : EReal => xR (ix2 p q) + s) ?_
  -- the kernel's sum runs over the reference's rows followed by rows of value zero
  exact LibScatterRows.sum_filter_padded (by decide : 1600000 ≤ 1605632)
    (fun e => (idxR (ix2 e (0 : Fin 1))).toInt) (fun e' => (idxK (ix2 e' (0 : Fin 1))).toInt)
    (fun e => updR (ix2 e q)) (fun e' => updK (ix2 e' q))
    (fun e => by rw [hidx e]) (fun e => hupd e q) (fun e' he => hzero e' q he) (p.val : ℤ)

end Cert.ScatterBridge

end
-- ==== Proof.LibPadRows.lean ====
/-
  A HOST PAD THAT APPENDS ROWS AT THE HIGH END, read at coordinates.

  Padding an `E × c` array (or an `E`-vector) by `h` rows at the high end of the first axis, and by nothing anywhere
  else (no low padding, no interior padding), gives an `E' × c` array (an `E'`-vector) whose row `e' < E` is the
  operand's row `e'` and whose every row `e' ≥ E` holds the padding value. Each statement is the library's reading of a
  pad at an index inside / not inside the operand, with the per-axis side conditions discharged for these padding
  amounts: inside means `e' = 0 + e · (0 + 1)` on the row axis and `f = 0 + f · (0 + 1)` on the column axis; not inside
  means that on the row axis `(e' − 0) / (0 + 1) = e'` is not below `E`.
-/
import Idealize.ShloMosaic.Lib.KernelVsHost
import Idealize.ShloMosaic.Lib.ValueIdx

noncomputable section

namespace Cert.LibPadRows

open Idealize.ShloMosaic Idealize.ShloMosaic.ValueIdx

/-- Rank 2, a row below `E`: the padded array's row `e'` is the operand's row of the same number. -/
theorem pad_rows2_lt {E E' c h : ℕ} {α : Type} (x : (⟨2, ![E, c]⟩ : Shape).Idx → α) {u : Shape} (v : u.Idx → α)
    (hp : (⟨2, ![E, c]⟩ : Shape).Pads (![0, 0] : Fin 2 → Nat) ![h, 0] ![0, 0] ⟨2, ![E', c]⟩) (hu : 0 < u.numel)
    (e : Fin E) (e' : Fin E') (he : e'.val = e.val) (f : Fin c) :
    pad ⟨2, ![E', c]⟩ ![0, 0] ![h, 0] ![0, 0] x v hp hu (ix2 e' f) = x (ix2 e f) := by
  refine pad_apply_of_inside _ _ _ x v hp hu (ix2 e' f) (ix2 e f) ?_
  rw [Fin.forall_fin_two]
  refine ⟨?_, ?_⟩
  · show e'.val = 0 + e.val * (0 + 1)
    omega
  · show f.val = 0 + f.val * (0 + 1)
    omega

/-- Rank 2, a row from `E` on: the padded array holds the padding value there. -/
theorem pad_rows2_ge {E E' c h : ℕ} {α : Type} (x : (⟨2, ![E, c]⟩ : Shape).Idx → α) {u : Shape} (v : u.Idx → α)
    (hp : (⟨2, ![E, c]⟩ : Shape).Pads (![0, 0] : Fin 2 → Nat) ![h, 0] ![0, 0] ⟨2, ![E', c]⟩) (hu : 0 < u.numel)
    (e' : Fin E') (he : E ≤ e'.val) (f : Fin c) :
    pad ⟨2, ![E', c]⟩ ![0, 0] ![h, 0] ![0, 0] x v hp hu (ix2 e' f) = v (Shape.Idx.first hu) := by
  refine pad_apply_of_not_inside _ _ _ x v hp hu (ix2 e' f) 0 ?_
  rintro ⟨-, -, h3⟩
  have h3' : (e'.val - 0) / 1 < E := h3
  rw [Nat.sub_zero, Nat.div_one] at h3'
  omega

/-- Rank 1, an entry below `E`: the padded vector's entry `e'` is the operand's entry of the same number. -/
theorem pad_rows1_lt {E E' h : ℕ} {α : Type} (x : (⟨1, ![E]⟩ : Shape).Idx → α) {u : Shape} (v : u.Idx → α)
    (hp : (⟨1, ![E]⟩ : Shape).Pads (![0] : Fin 1 → Nat) ![h] ![0] ⟨1, ![E']⟩) (hu : 0 < u.numel)
    (e : Fin E) (e' : Fin E') (he : e'.val = e.val) :
    pad ⟨1, ![E']⟩ ![0] ![h] ![0] x v hp hu (ix1 e') = x (ix1 e) := by
  refine pad_apply_of_inside _ _ _ x v hp hu (ix1 e') (ix1 e) ?_
  rw [Fin.forall_fin_one]
  show e'.val = 0 + e.val * (0 + 1)
  omega

/-- Rank 1, an entry from `E` on: the padded vector holds the padding value there. -/
theorem pad_rows1_ge {E E' h : ℕ} {α : Type} (x : (⟨1, ![E]⟩ : Shape).Idx → α) {u : Shape} (v : u.Idx → α)
    (hp : (⟨1, ![E]⟩ : Shape).Pads (![0] : Fin 1 → Nat) ![h] ![0] ⟨1, ![E']⟩) (hu : 0 < u.numel)
    (e' : Fin E') (he : E ≤ e'.val) :
    pad ⟨1, ![E']⟩ ![0] ![h] ![0] x v hp hu (ix1 e') = v (Shape.Idx.first hu) := by
  refine pad_apply_of_not_inside _ _ _ x v hp hu (ix1 e') 0 ?_
  rintro ⟨-, -, h3⟩
  have h3' : (e'.val - 0) / 1 < E := h3
  rw [Nat.sub_zero, Nat.div_one] at h3'
  omega

end Cert.LibPadRows

end
-- ==== Proof.KernelValue.lean ====
/-
  The kernel program's result is the linear layer on the REFERENCE's aggregate.

  Followed through the run, the result buffer ends at the second pallas_call's output, which is `nodeOut` of that call's
  aggregate operand, the weights and the bias. The weights and the bias are the launch arguments (nothing writes them).
  The aggregate is the host scatter-add, into zeros, of the first pallas_call's output — every padded gathered row times
  its padded coefficient — at the padded row numbers. The 5632 appended rows are 0 · 0 = 0 and add nothing, whatever row
  they are sent to; on the first 1600000 rows the product is the reference's (coefficient · row, the factors exchanged)
  and the row numbers are the reference's. So the aggregate is the reference's own scatter-add.
-/
import proofs.«113284_j33449205301469_1_alg».proof.Proof.Gen.KernelIdeal.Frame
import proofs.«113284_j33449205301469_1_alg».proof.Proof.RefRead
import proofs.«113284_j33449205301469_1_alg».proof.Proof.Stages
import proofs.«113284_j33449205301469_1_alg».proof.Proof.ScaleValue
import proofs.«113284_j33449205301469_1_alg».proof.Proof.LinReluValue
import proofs.«113284_j33449205301469_1_alg».proof.Proof.ScatterBridge
import proofs.«113284_j33449205301469_1_alg».proof.Proof.LibPadRows
import Idealize.ShloMosaic.Lib.Pipeline.Value
import Idealize.ShloMosaic.Lib.ValueIdx

set_option maxRecDepth 16384

noncomputable section

namespace Cert.KernelIdeal.KernelValue

open Cert.KernelIdeal Cert.KernelIdeal.Gen
open Idealize.ShloMosaic Idealize.ShloMosaic.TcCoe Idealize.SL.Sem Idealize.ShloMosaic.StableHlo Idealize.ShloMosaic.ValueIdx
open Cert.Sage Cert.NodeSpec
open Cert.ReferenceIdeal.Read

variable (m : (ℓ : Loc nD τ sig) → Buf (Elt Ideal) ℓ) (ρ : Dev nD → PrngReg)

/-- The weights reach the second call as launched. -/
theorem arg2_eq (c : Dev nD) : W14 m ρ c (Proc.devRef .tc main_arg2) = m ((c : Thread nD τ).loc main_arg2) :=
  ((W15_arr m ρ c 1).trans (((dat1 (V14 m ρ) c).arrAt_in 1 rfl _).trans (A_eq1 (V14 m ρ) c 1))).symm.trans (W15_main_arg2 m ρ c)

/-- The bias reaches the second call as launched. -/
theorem arg3_eq (c : Dev nD) : W14 m ρ c (Proc.devRef .tc main_arg3) = m ((c : Thread nD τ).loc main_arg3) :=
  ((W15_arr m ρ c 2).trans (((dat1 (V14 m ρ) c).arrAt_in 2 rfl _).trans (A_eq1 (V14 m ρ) c 2))).symm.trans (W15_main_arg3 m ρ c)

/-- The second call's aggregate operand is the host scatter-add, into zeros, of the first call's output at the padded
    row numbers. -/
theorem v50_eq (c : Dev nD) :
    W14 m ρ c (Proc.devRef .tc main_v50)
      = Host.scatterAdd (F := Ideal) scatter_S100000x48_S1605632x1_S1605632x48_1_0_0_1
          (broadcastInDim S100000x48 ![] bcast_S_S100000x48 (constant (F := Ideal) S_ .f32 0x00000000#32))
          (broadcastInDim S1605632x1 ![0] bcast_S1605632_S1605632x1_0 (W13 m ρ c (Proc.devRef .tc main_v46)))
          (W13 m ρ c (Proc.devRef .tc main_v47)) := by
  show StableHlo.after hostOps1 (W13 m ρ c) (Proc.devRef .tc main_v50) = _
  after_results

/-- The float pads' value is zero: the integer zero converted. -/
theorem zf_eq (i : S_.Idx) : (sitofp (F := Ideal) .f32 (constantI S_ 32 0#32)) i = (0 : EReal) := by
  show (((0#32 : BitVec 32).toInt : ℝ) : EReal) = 0
  have h : (0#32 : BitVec 32).toInt = 0 := by decide
  rw [h]; simp

/-- The second call's aggregate operand is the reference's aggregate. -/
theorem agg_eq (c : Dev nD) :
    W14 m ρ c (Proc.devRef .tc main_v50)
      = val_main_v49 (F := Ideal) (m ((c.tc : Thread nD τ).loc main_arg0)) (m ((c.tc : Thread nD τ).loc main_arg1)) := by
  have h47 : W13 m ρ c (Proc.devRef .tc main_v47)
      = ScaleValue.scaled (W12 m ρ c (Proc.devRef .tc main_v44)) (W12 m ρ c (Proc.devRef .tc main_v45)) :=
    (W13_arr m ρ c 2).trans (ScaleValue.final (V12 m ρ) c)
  have h46 : W13 m ρ c (Proc.devRef .tc main_v46) = W12 m ρ c (Proc.devRef .tc main_v46) :=
    W13_of_ne m ρ c main_v46 (by decide)
  rw [v50_eq, h47, h46, Stages.v44_eq, Stages.v45_eq, Stages.v46_eq]
  unfold val_main_v49
  refine Cert.ScatterBridge.scatterAdd_padded_eq _ _ _ _ _ _ (fun p q => rfl) (fun e => ?_) (fun e f => ?_) (fun e' f he => ?_)
  · -- the row numbers of the first 1600000 rows
    rw [val_main_v48_apply]
    refine (broadcastInDim_apply _ bcast_S1605632_S1605632x1_0 _ _ (ix1 (Fin.castLE (by decide : 1600000 ≤ 1605632) e)) (fun a => match a with
      | ⟨0, _⟩ => by show _ = if (1605632 : Nat) = 1 then 0 else _; rw [if_neg (by decide)]; rfl)).trans ?_
    refine (Cert.LibPadRows.pad_rows1_lt (E := 1600000) (E' := 1605632) (h := 5632) _ _ _ _ e
      (Fin.castLE (by decide : 1600000 ≤ 1605632) e) rfl).trans ?_
    refine congrArg _ ?_
    funext a; apply Fin.ext
    match a with
    | ⟨0, _⟩ => rfl
  · -- the products of the first 1600000 rows
    unfold ScaleValue.scaled
    rw [val_main_v46_apply, val_main_v45_apply, val_main_v37_apply]
    refine (congrArg₂ (· * ·)
      (Cert.LibPadRows.pad_rows2_lt (E := 1600000) (E' := 1605632) (c := 48) (h := 5632) _ _ _ _ e
        (Fin.castLE (by decide : 1600000 ≤ 1605632) e) rfl f)
      (Cert.LibPadRows.pad_rows1_lt (E := 1600000) (E' := 1605632) (h := 5632) _ _ _ _ e
        (⟨(ix2 (Fin.castLE (by decide : 1600000 ≤ 1605632) e) f 0).val, idx2_lt0 _⟩ : Fin 1605632) rfl)).trans ?_
    refine (mul_comm _ _).trans ?_
    refine congrArg₂ (· * ·) (congrArg _ ?_) rfl
    funext a; apply Fin.ext
    match a with
    | ⟨0, _⟩ => rfl
  · -- the appended rows are zero
    unfold ScaleValue.scaled
    refine (congrArg₂ (· * ·)
      (Cert.LibPadRows.pad_rows2_ge (E := 1600000) (E' := 1605632) (c := 48) (h := 5632) _ _ _ _ e' he f)
      (Cert.LibPadRows.pad_rows1_ge (E := 1600000) (E' := 1605632) (h := 5632) _ _ _ _
        (⟨(ix2 e' f 0).val, idx2_lt0 _⟩ : Fin 1605632) he)).trans ?_
    rw [zf_eq]
    exact zero_mul _

/-- The last boundary's contents at the result buffer: the linear layer, clipped at zero, on the reference's aggregate,
    with the launch weights and bias. -/
theorem result_eq (c : Dev nD) :
    W15 m ρ c (Proc.devRef .tc main_v51)
      = nodeOut (n := 100000)
          (val_main_v49 (F := Ideal) (m ((c.tc : Thread nD τ).loc main_arg0)) (m ((c.tc : Thread nD τ).loc main_arg1)))
          (m ((c.tc : Thread nD τ).loc main_arg2)) (m ((c.tc : Thread nD τ).loc main_arg3)) := by
  refine ((W15_arr m ρ c 3).trans (LinReluValue.final (V14 m ρ) c)).trans ?_
  exact (congrArg (fun A : Arr2 100000 48 => nodeOut A (V14 m ρ c main_arg2) (V14 m ρ c main_arg3)) (agg_eq m ρ c)).trans
    ((congrArg (fun W : Arr2 48 48 => nodeOut _ W (V14 m ρ c main_arg3)) (arg2_eq m ρ c)).trans
      (congrArg (fun b : Arr1 48 => nodeOut _ _ b) (arg3_eq m ρ c)))

end Cert.KernelIdeal.KernelValue

end
-- ==== Proof.RefValue.lean ====
/-
  The reference's result is the linear layer on ITS aggregate.

  The reference ends with: the aggregate (its scatter-add) multiplied, as a `dot_general` contracting the feature axis,
  by the transposed weight matrix; the bias broadcast to every row and added; the maximum with zero. Read at (p, o)
  this is max( Σ_k agg(p, k) · W(o, k) + b(o), 0 ): `nodeOut` of the aggregate, the weights and the bias.
-/
import proofs.«113284_j33449205301469_1_alg».proof.Proof.RefRead
import proofs.«113284_j33449205301469_1_alg».proof.Proof.NodeSpec

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx
open Cert.Sage Cert.NodeSpec

/-- The reference's last stage, index by index, is the layer's output on the reference's aggregate. -/
theorem result_eq (x0 : (⟨S100000x48, .f32⟩ : BufTy).Contents (Elt Ideal)) (x1 : (⟨S2x1600000, .i32⟩ : BufTy).Contents (Elt Ideal))
    (x2 : (⟨S48x48, .f32⟩ : BufTy).Contents (Elt Ideal)) (x3 : (⟨S48, .f32⟩ : BufTy).Contents (Elt Ideal)) :
    val_main_v55 (F := Ideal) x0 x1 x2 x3 = nodeOut (n := 100000) (val_main_v49 (F := Ideal) x0 x1) x2 x3 := by
  funext i
  obtain ⟨p, o, rfl⟩ : ∃ (p : Fin 100000) (o : Fin 48), i = ix2 p o := ⟨i 0, i 1, eq_ix2 i⟩
  rw [val_main_v55_apply, val_main_v54_apply, val_main_v51_apply, val_main_v53_apply, val_main_v52_apply,
    val_main_call3_v0_apply, val_main_call3_cst_apply]
  unfold nodeOut
  refine congrArg₂ max (congrArg₂ (· + ·) (Finset.sum_congr rfl fun k _ => ?_) ?_) rfl
  · rw [val_main_v50_apply]
    refine congrArg₂ (· * ·) (congrArg _ ?_) (congrArg _ ?_)
    · funext a; apply Fin.ext
      match a with
      | ⟨0, _⟩ => rfl
      | ⟨1, _⟩ => rfl
    · funext a; apply Fin.ext
      match a with
      | ⟨0, _⟩ => rfl
      | ⟨1, _⟩ => rfl
  · refine congrArg _ ?_
    funext a; apply Fin.ext
    match a with
    | ⟨0, _⟩ => rfl

end Cert.ReferenceIdeal.RefValue

end
-- ==== Proof.lean ====
/-
  The certificate of a graph-convolution layer: the kernel program against its reference, on the extended reals.

  Both programs compute, from node features x [100000, 48], an edge list [2, 1600000] of target and source nodes,
  weights W [48, 48] and a bias b [48]:
    · the degree of every node as a target, its inverse square root where positive (zero elsewhere), and for every
      edge the coefficient c(e) = that value at the target times that value at the source;
    · the message of edge e: the source node's feature row times c(e);
    · the aggregate: every message added into the row of its target node (a scatter-add into zeros);
    · the output: max(aggregate · Wᵀ + b, 0).
  The reference does all of it in host operations. The kernel program shares the host operations up to the coefficients
  and the gathered source rows, pads the edge axis with 5632 zero rows to 98 blocks of 16384, multiplies rows by
  coefficients in a first pallas_call (one block per grid point), scatter-adds the padded products on the host, and
  computes the output in a second pallas_call over 10 blocks of 10000 node rows (a matrix product into a zero
  accumulator, the bias, the maximum with zero; narrowing to bf16 is the identity on the extended reals).

  The two results are one function of the arguments: each pallas_call's output array is one whole-array function of
  its operands (its blocks tile the array); the appended rows are 0 · 0 = 0 and add nothing to any node's sum; on the
  real edges the product differs from the reference's only in the order of its two factors; a block of rows of the
  matrix product is the product of that block of rows. No step needs the inputs to be finite: only commutativity of the
  product, x + 0 = x and 0 · 0 = 0 are used, which hold on all extended reals.

  The idealization rewrote nothing, so `preserves` is trivial. The kernel programs' frames are the generated frame
  certificates; the reference's frame is its run with the result dropped.
-/
import proofs.«113284_j33449205301469_1_alg».proof.Defs
import proofs.«113284_j33449205301469_1_alg».proof.Proof.Gen.Kernel
import proofs.«113284_j33449205301469_1_alg».proof.Proof.Gen.Kernel.Skeleton
import proofs.«113284_j33449205301469_1_alg».proof.Proof.Gen.Kernel.Launch
import proofs.«113284_j33449205301469_1_alg».proof.Proof.Gen.Kernel.Points
import proofs.«113284_j33449205301469_1_alg».proof.Proof.Gen.Kernel.Frame
import proofs.«113284_j33449205301469_1_alg».proof.Proof.Gen.KernelIdeal
import proofs.«113284_j33449205301469_1_alg».proof.Proof.Gen.KernelIdeal.Skeleton
import proofs.«113284_j33449205301469_1_alg».proof.Proof.Gen.KernelIdeal.Launch
import proofs.«113284_j33449205301469_1_alg».proof.Proof.Gen.KernelIdeal.Points
import proofs.«113284_j33449205301469_1_alg».proof.Proof.Gen.KernelIdeal.Frame
import proofs.«113284_j33449205301469_1_alg».proof.Proof.Gen.ReferenceIdeal
import proofs.«113284_j33449205301469_1_alg».proof.Proof.Gen.Pre_finite_inputs
import proofs.«113284_j33449205301469_1_alg».proof.Proof.KernelRun
import proofs.«113284_j33449205301469_1_alg».proof.Proof.KernelValue
import proofs.«113284_j33449205301469_1_alg».proof.Proof.RefRun
import proofs.«113284_j33449205301469_1_alg».proof.Proof.RefRead
import proofs.«113284_j33449205301469_1_alg».proof.Proof.RefValue
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- On the extended reals both programs end with the same result array: the linear layer, clipped at zero, on the
    reference's aggregate of the arguments. -/
theorem algebraic : Cert.algebraic_KernelIdeal_ReferenceIdeal := by
  intro m ρ m' ρ' _ hagree
  refine ⟨fun c => Cert.KernelIdeal.Gen.W15 m ρ c (Proc.devRef .tc Cert.KernelIdeal.main_v51),
    Cert.KernelIdeal.RunValue.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v55_eq, Cert.ReferenceIdeal.RefValue.result_eq,
    (hagree c).1, (hagree c).2.1, (hagree c).2.2.1, (hagree c).2.2.2]
  exact (Cert.KernelIdeal.KernelValue.result_eq m ρ c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
